-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S32x2048 32) (main_arg1 : IVec S524288 32) (main_arg2 : IVec S524288 32) (main_arg3 : IVec S524288 32) (main_arg4 : IVec S524288 32) (main_arg5 : IVec S524288 32) (main_arg6 : FVec F S128x128 .f32) (main_arg7 : FVec F S128 .f32) : IVec S_ 1 :=
  let main_v0 : FVec F S128x128 .f32 := Host.absf main_arg6
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩
abbrev S1048576 : Shape := ⟨1, ![1048576]⟩
abbrev S65536 : Shape := ⟨1, ![65536]⟩
abbrev S1048576x1 : Shape := ⟨2, ![1048576, 1]⟩
abbrev S65536x1 : Shape := ⟨2, ![65536, 1]⟩
abbrev S1x128 : Shape := ⟨2, ![1, 128]⟩
abbrev S65536x128 : Shape := ⟨2, ![65536, 128]⟩
abbrev S4096x1 : Shape := ⟨2, ![4096, 1]⟩
abbrev S4096x128 : Shape := ⟨2, ![4096, 128]⟩
abbrev S32x2048x128 : Shape := ⟨3, ![32, 2048, 128]⟩

abbrev nBuf : Space → Nat
  | .hbm => 30
  | .vmem => 5
  | .smem => 0
  | _ => 0

abbrev bufTy : (tb : Table) → Fin (tcTables nBuf tb) → BufTy
  | .hbm, ⟨0, _⟩ => ⟨S32x2048, .i32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1048576, .i32⟩
  | .hbm, ⟨12, _⟩ => ⟨S_, .i32⟩
  | .hbm, ⟨13, _⟩ => ⟨S65536, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S_, .i32⟩
  | .hbm, ⟨23, _⟩ => ⟨S1048576, .i32⟩
  | .hbm, ⟨24, _⟩ => ⟨S65536, .i32⟩
  | .hbm, ⟨25, _⟩ => ⟨S65536, .f32⟩
  | .hbm, ⟨26, _⟩ => ⟨S65536x1, .f32⟩
  | .hbm, ⟨27, _⟩ => ⟨S1x128, .f32⟩
  | .hbm, ⟨28, _⟩ => ⟨S65536x128, .f32⟩
  | .hbm, ⟨29, _⟩ => ⟨S32x2048x128, .f32⟩
  | .local _ .vmem, ⟨0, _⟩ => ⟨S4096x1, .f32⟩
  | .local _ .vmem, ⟨1, _⟩ => ⟨S4096x1, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x128_S128_d1 : S128x128.ReducesTo [1] S128
  h_S_ : 0 < S_.numel
  concatenates_S524288_S524288_S1048576_d0 : Shape.Concatenates [S524288, S524288] S1048576 0
  bcast_S_S65536 : S_.BroadcastsInDim S65536 (![] : Fin 0 → Fin S65536.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S65536_S65536x1 : S65536.ShapeCasts S65536x1
  shapeCasts_S128_S1x128 : S128.ShapeCasts S1x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4096x1_S4096x128 : S4096x1.Broadcasts S4096x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S65536x128_S32x2048x128 : S65536x128.ShapeCasts S32x2048x128
  scatter_S65536_S1048576x1_S1048576_n_0_0_1_wf : ScatterDims.WF S65536 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S65536x1.size a
  hwx0_0 : ∀ i : grid0.Coords, EltTy.bits .f32 = 32 ∨ (Rect.block (s := S65536x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf

abbrev win0_0 : Pipeline.Window sig grid0 :=
  Pipeline.Window.ofSpec (Memref.whole main_v13) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S524288 : Shape := ⟨1, ![524288]⟩
abbrev S128x128 : Shape := ⟨2, ![128, 128]⟩
abbrev S128 : Shape := ⟨1, ![128]⟩
abbrev S_ : Shape := ⟨0, ![]⟩
abbrev S524288x128 : Shape := ⟨2, ![524288, 128]⟩
abbrev S1x128 : Shape := ⟨2, ![1, 128]⟩
abbrev S65536x128 : Shape := ⟨2, ![65536, 128]⟩
abbrev S524288x1 : Shape := ⟨2, ![524288, 1]⟩
abbrev S32x2048x128 : Shape := ⟨3, ![32, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S524288x128, .f32⟩
  | .hbm, ⟨10, _⟩ => ⟨S128x128, .f32⟩
  | .hbm, ⟨11, _⟩ => ⟨S524288x128, .f32⟩
  | .hbm, ⟨12, _⟩ => ⟨S1x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S65536x128, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S65536x128, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S32x2048x128, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S_S524288x128 : S_.BroadcastsInDim S524288x128 (![] : Fin 0 → Fin S524288x128.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S65536x128 : S_.BroadcastsInDim S65536x128 (![] : Fin 0 → Fin S65536x128.rank)
  bcast_S_S524288 : S_.BroadcastsInDim S524288 (![] : Fin 0 → Fin S524288.rank)
  bcast_S524288_S524288x1_0 : S524288.BroadcastsInDim S524288x1 (![0] : Fin 1 → Fin S524288x1.rank)
  shapeCasts_S65536x128_S32x2048x128 : S65536x128.ShapeCasts S32x2048x128
  dot_S524288x128_S128x128_S524288x128_1_0_0_1_n_n_wf : DotDims.WF S524288x128 S128x128 S524288x128 [1] [0] [0] [1] [] []
  scatter_S65536x128_S524288x1_S524288x128_1_0_0_1_wf : ScatterDims.WF S65536x128 S524288x1 S524288x128 [1] [0] [0] 1

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf

class Facts : Prop extends Facts₀ where

variable [Facts]
-- ==== Proof.ScatterKer.lean ====
/-
  Where an update of the kernel's integer scatter lands.  The updates form a vector of 1048576 ones, the operand a
  vector of 65536 counters, the scatter indices a 1048576 × 1 array whose one column names the counter: update n
  lands on counter s exactly when its signed index is s, and nowhere when the index is outside [0, 65536).
-/
import proofs.«159091_j9234179687652_2_alg».proof.Proof.Gen.KernelIdeal
import Idealize.ShloMosaic.Lib.ValueIdx

noncomputable section
open Idealize.ShloMosaic Idealize.ShloMosaic.ValueIdx
namespace Cert.KernelIdeal.ScatterIdx
open Cert.KernelIdeal Cert.KernelIdeal.Gen

local notation "dK" => scatter_S65536_S1048576x1_S1048576_n_0_0_1

/-- The counter at which update `j` starts: its signed scatter index. -/
theorem start0 (j : S1048576.Idx) (idx : IVec S1048576x1 32) :
    ScatterDims.start dK j idx 0 = (idx (ix2 (j 0) 0)).toInt := by
  unfold ScatterDims.start
  rw [dif_pos (show (0 : Fin S65536.rank) ∈ ScatterDims.scatterDimsToOperandDims dK by decide)]
  congr 2
  funext b
  match b with
  | ⟨0, _⟩ => apply Fin.ext; rfl
  | ⟨1, _⟩ => apply Fin.ext; rfl

/-- The operand's one axis is inserted: no window coordinate. -/
theorem window0 (j : S1048576.Idx) : ScatterDims.window dK j 0 = 0 := by
  unfold ScatterDims.window
  rw [dif_neg (show ¬ (0 : Fin S65536.rank) ∈ ScatterDims.sKept dK by decide)]

/-- Update `j` lands on counter `i` iff its signed index is `i`. -/
theorem resultIdx_iff (j : S1048576.Idx) (idx : IVec S1048576x1 32) (i : S65536.Idx) :
    ScatterDims.resultIdx? dK j idx = some i ↔ (idx (ix2 (j 0) 0)).toInt = ((i 0).val : ℤ) := by
  have hi0 : (i 0).val < 65536 := (i 0).isLt
  have sz0 : S65536.size 0 = 65536 := rfl
  unfold ScatterDims.resultIdx?
  by_cases h : ∀ a, 0 ≤ ScatterDims.start dK j idx a + ScatterDims.window dK j a ∧
      ScatterDims.start dK j idx a + ScatterDims.window dK j a < S65536.size a
  · rw [dif_pos h]
    have h0 := h 0
    rw [start0, window0, sz0] at h0
    constructor
    · intro e
      have e' := Option.some.inj e
      have e0 : (ScatterDims.start dK j idx 0 + ScatterDims.window dK j 0).toNat = (i 0).val :=
        congrArg (fun f : S65536.Idx => (f 0).val) e'
      rw [start0, window0] at e0
      omega
    · intro e0
      congr 1
      funext a
      apply Fin.ext
      match a with
      | ⟨0, _⟩ =>
        show (ScatterDims.start dK j idx 0 + ScatterDims.window dK j 0).toNat = (i 0).val
        rw [start0, window0]; omega
  · rw [dif_neg h]
    constructor
    · intro e; cases e
    · intro e0
      exfalso; apply h
      intro a
      match a with
      | ⟨0, _⟩ =>
        show 0 ≤ ScatterDims.start dK j idx 0 + ScatterDims.window dK j 0 ∧ ScatterDims.start dK j idx 0 + ScatterDims.window dK j 0 < S65536.size 0
        rw [start0, window0, sz0]; omega

end Cert.KernelIdeal.ScatterIdx
end
-- ==== Proof.Counting.lean ====
/-
  Counting lemmas shared by the two sides.

  * A left fold whose step adds one to the counter an item lands on (and leaves the counters alone when the item lands
    nowhere) ends, at every counter, at its initial value plus the NUMBER of items landing there.
  * Over the list of all elements of `Fin N` that number is the cardinality of the corresponding filter of the universe.
  * A 32-bit word holding a natural number below 2^31, read signed, is that number.
  * In the extended reals, adding a constant once per element of a finite set is multiplying it by the cardinality.
-/
import Mathlib.Data.EReal.Operations
import Mathlib.Data.Fintype.Basic
import Mathlib.Algebra.BigOperators.Group.Finset.Basic

open scoped BigOperators

namespace Cert.Counting

/-- The fold of "add one where the item lands": each counter ends at its start plus the number of items landing on it. -/
theorem foldl_count {κ ι : Type} [DecidableEq ι] (g : κ → Option ι)
    (step : (ι → BitVec 32) → κ → (ι → BitVec 32))
    (hsome : ∀ r n i₀, g n = some i₀ → step r n = fun i' => if i' = i₀ then r i₀ + 1#32 else r i')
    (hnone : ∀ r n, g n = none → step r n = r)
    (l : List κ) (x : ι → BitVec 32) (i : ι) :
    (l.foldl step x) i = x i + BitVec.ofNat 32 (l.countP (fun n => decide (g n = some i))) := by
  induction l generalizing x with
  | nil => simp
  | cons n l ih =>
    rw [List.foldl_cons, ih, List.countP_cons]
    cases hg : g n with
    | none =>
      rw [hnone x n hg]
      simp
    | some i₀ =>
      rw [hsome x n i₀ hg]
      by_cases hi : i = i₀
      · subst hi
        simp only [if_true, decide_true, if_pos]
        rw [Nat.add_comm, BitVec.ofNat_add, BitVec.add_assoc]
      · have hne : ¬ (some i₀ = some i) := fun e => hi (Option.some.inj e).symm
        simp [hi, hne]

/-- Counting over the list of all of `Fin N` is the cardinality of the filter. -/
theorem countP_finRange (N : ℕ) (p : Fin N → Prop) [DecidablePred p] :
    (List.finRange N).countP (fun n => decide (p n)) = (Finset.univ.filter p).card := by
  rw [Fin.univ_def, Finset.card, Finset.filter_val]
  show _ = Multiset.card (Multiset.filter p (↑(List.finRange N) : Multiset (Fin N)))
  rw [Multiset.filter_coe, Multiset.coe_card, List.countP_eq_length_filter]

/-- A natural number below 2^31, stored in a 32-bit word and read back signed, is itself. -/
theorem toInt_ofNat_of_lt {n : ℕ} (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_cond, hn]
  have : 2 * n < 2 ^ 32 := by omega
  rw [if_pos this]

/-- A constant added once per element of a finite set: the cardinality times the constant (no finiteness of the
    constant is needed: the multiplier is a nonnegative integer). -/
theorem sum_const_mul {ι : Type} (S : Finset ι) (c : EReal) :
    ∑ _j ∈ S, c = ((S.card : ℝ) : EReal) * c := by
  rw [Finset.sum_const, EReal.nsmul_eq_mul]
  norm_cast

end Cert.Counting
-- ==== Proof.Spec.lean ====
/-
  The common value of the two programs, over the extended reals.

  Every fact contributes the SAME row to the slots of its tail and of its head: the relation features are all ones, so
  the linear layer's output row is `row h = (∑ₖ W[h, k]) + b[h]` whatever the fact.  Slot `s` therefore receives that
  row once per fact whose (normalised) tail index is `s` and once per fact whose head index is `s`:
  `agg[s, h] = (deg tails s + deg heads s) · row h`, and the result is its positive part.  The reference adds the row
  fact by fact; the kernel counts the facts in integers and multiplies once.  The two agree because adding a constant
  n times is multiplying it by n, and `(a + b) · c = a · c + b · c` for NONNEGATIVE multipliers a, b — true in the
  extended reals whatever c is, so no finiteness of W or b is used.
-/
import Idealize.ShloMosaic.PureOps.Ideal
import Idealize.ShloMosaic.Lib.ValueIdx
import proofs.«159091_j9234179687652_2_alg».proof.Proof.Counting

noncomputable section

open scoped BigOperators

namespace Cert.Spec

open Idealize.ShloMosaic Idealize.ShloMosaic.ValueIdx

/-- A negative index counts from the end of the 65536 slots (the programs' own normalisation, on 32-bit words). -/
def norm (a : BitVec 32) : BitVec 32 := Scalar.select (IntOp.cmpi .slt a 0#32) (IntOp.addi a 65536#32) a

/-- How many of the 524288 facts have normalised index (read signed) equal to slot `s`. -/
def deg (x : (⟨1, ![524288]⟩ : Shape).Idx → BitVec 32) (s : Fin 65536) : ℕ :=
  (Finset.univ.filter fun f : Fin 524288 => (norm (x (ix1 f))).toInt = (s.val : ℤ)).card

/-- The row every fact contributes: the sum of row `h` of `W`, plus `b[h]`. -/
def row (W : (⟨2, ![128, 128]⟩ : Shape).Idx → EReal) (b : (⟨1, ![128]⟩ : Shape).Idx → EReal) (h : Fin 128) : EReal :=
  (∑ k : Fin 128, W (ix2 h k)) + b (ix1 h)

/-- The result before the final reshape: slot `s`, feature `h` holds the positive part of (tail degree + head degree) · row h. -/
def G (heads tails : (⟨1, ![524288]⟩ : Shape).Idx → BitVec 32) (W : (⟨2, ![128, 128]⟩ : Shape).Idx → EReal)
    (b : (⟨1, ![128]⟩ : Shape).Idx → EReal) : (⟨2, ![65536, 128]⟩ : Shape).Idx → EReal := fun i =>
  max ((((deg tails (i 0) + deg heads (i 0) : ℕ) : ℝ) : EReal) * row W b (i 1)) 0

theorem deg_le (x : (⟨1, ![524288]⟩ : Shape).Idx → BitVec 32) (s : Fin 65536) : deg x s ≤ 524288 := by
  unfold deg
  refine (Finset.card_filter_le _ _).trans ?_
  rw [Finset.card_univ, Fintype.card_fin]

/-- Nonnegative integer multipliers distribute over the sum, for any extended real. -/
theorem split_mul (a b : ℕ) (c : EReal) :
    (((a + b : ℕ) : ℝ) : EReal) * c = ((a : ℝ) : EReal) * c + ((b : ℝ) : EReal) * c := by
  rw [Nat.cast_add, EReal.coe_add]
  exact EReal.right_distrib_of_nonneg (by exact_mod_cast Nat.zero_le a) (by exact_mod_cast Nat.zero_le b)

/-- A rank-1 index set counted through its one coordinate. -/
theorem card_idx1 (n : ℕ) (p : (⟨1, ![n]⟩ : Shape).Idx → Prop) [DecidablePred p] :
    (Finset.univ.filter p).card = (Finset.univ.filter fun f : Fin n => p (ix1 f)).card := by
  symm
  refine Finset.card_bij (fun f _ => ix1 f) ?_ ?_ ?_
  · intro f hf
    rw [Finset.mem_filter] at hf ⊢
    exact ⟨Finset.mem_univ _, hf.2⟩
  · intro f _ f' _ e
    exact congrFun e 0
  · intro j hj
    rw [Finset.mem_filter] at hj
    have hp : p (ix1 (j 0)) := by
      have h2 := hj.2
      rwa [eq_ix1 j] at h2
    exact ⟨j 0, Finset.mem_filter.mpr ⟨Finset.mem_univ _, hp⟩, (eq_ix1 j).symm⟩

/-- Counting over `Fin N`, `N = a + b`, splits into the first `a` and the last `b`. -/
theorem card_filter_split {a b N : ℕ} (h : a + b = N) (p : Fin N → Prop) [DecidablePred p] :
    (Finset.univ.filter p).card
      = (Finset.univ.filter fun f : Fin a => p ⟨f.val, by omega⟩).card
        + (Finset.univ.filter fun f : Fin b => p ⟨a + f.val, by omega⟩).card := by
  subst h
  simp only [Finset.card_filter]
  exact Fin.sum_univ_add _

end Cert.Spec

end
-- ==== Proof.KerHost.lean ====
/-
  The two arrays the kernel's region is launched on, as functions of the program's arguments.

  Before the region the program (1) sums each row of W and adds b: the row vector `Spec.row`, reshaped to 1 × 128;
  (2) concatenates the tail and head index arrays (tails first), normalises the 1048576 indices, and scatters a ONE
  per index into 65536 integer counters starting from zero; the counters, converted to floats, are reshaped to
  65536 × 1.  A counter ends at the number of indices equal to its slot — the slot's tail degree plus its head degree,
  at most 1048576, so the 32-bit counter never wraps and its float value is that number.
-/
import proofs.«159091_j9234179687652_2_alg».proof.Proof.Gen.KernelIdeal.Frame
import proofs.«159091_j9234179687652_2_alg».proof.Proof.ScatterKer
import proofs.«159091_j9234179687652_2_alg».proof.Proof.Spec
import Idealize.ShloMosaic.Lib.StableHlo.Run
import Idealize.ShloMosaic.Lib.Pipeline.Value
import Idealize.ShloMosaic.PureOps.Ideal.Laws

noncomputable section

open scoped BigOperators

namespace Cert.KernelIdeal.Host

open Cert.KernelIdeal Cert.KernelIdeal.Gen Cert.KernelIdeal.ScatterIdx
open Idealize.ShloMosaic Idealize.ShloMosaic.TcCoe Idealize.SL.Sem Idealize.ShloMosaic.StableHlo
open Idealize.ShloMosaic.ValueIdx

local notation "dK" => scatter_S65536_S1048576x1_S1048576_n_0_0_1

/-- The tail indices followed by the head indices. -/
def catIdx (x1 x3 : S524288.Idx → BitVec 32) : S1048576.Idx → BitVec 32 :=
  concatenate S1048576 0 [⟨S524288, x3⟩, ⟨S524288, x1⟩] concatenates_S524288_S524288_S1048576_d0

/-- The concatenated indices, normalised, as the scatter's one index column. -/
def normIdx (x1 x3 : S524288.Idx → BitVec 32) : IVec S1048576x1 32 :=
  broadcastInDim S1048576x1 ![0] bcast_S1048576_S1048576x1_0
    (select (cmpi .slt (catIdx x1 x3) (broadcastInDim S1048576 ![] bcast_S_S1048576 (constantI S_ 32 0#32)))
      (addi (catIdx x1 x3) (broadcastInDim S1048576 ![] bcast_S_S1048576 (constantI S_ 32 65536#32))) (catIdx x1 x3))

/-- The integer counters: a one scattered (added) at every normalised index, from zero. -/
def countsI (x1 x3 : S524288.Idx → BitVec 32) : S65536.Idx → BitVec 32 :=
  Host.scatter scatter_S65536_S1048576x1_S1048576_n_0_0_1 IntOp.addi
    (broadcastInDim S65536 ![] bcast_S_S65536 (constantI S_ 32 0#32)) (normIdx x1 x3)
    (broadcastInDim S1048576 ![] bcast_S_S1048576 (constantI S_ 32 1#32))

/-- The counters as a 65536 × 1 float array: the kernel's first operand. -/
def counts2d (x1 x3 : S524288.Idx → BitVec 32) : S65536x1.Idx → EReal :=
  shapeCast S65536x1 (sitofp (F := Ideal) .f32 (countsI x1 x3)) shapeCasts_S65536_S65536x1

/-- The row sums of W plus b as a 1 × 128 array: the kernel's second operand. -/
def v2d (x6 : S128x128.Idx → EReal) (x7 : S128.Idx → EReal) : S1x128.Idx → EReal :=
  shapeCast S1x128 (addf (F := Ideal) (Host.reduceAdd (F := Ideal) x6 (constant S_ .f32 0x00000000#32) reducesTo_S128x128_S128_d1 h_S_) x7) shapeCasts_S128_S1x128

section Entry
variable (m : (ℓ : Loc nD τ sig) → Buf (Elt Ideal) ℓ)

/-- The region finds the counters array at `counts2d` of the head and tail arguments. -/
theorem V_counts (c : Dev nD) : (V m c main_v13 : S65536x1.Idx → EReal)
    = counts2d (m ((c : Thread nD τ).loc main_arg1)) (m ((c : Thread nD τ).loc main_arg3)) := by
  show StableHlo.after hostOps0 (fun b => m (c, b)) (Proc.devRef .tc main_v13) = _
  after_results
  rfl

/-- The region finds the row array at `v2d` of W and b. -/
theorem V_row (c : Dev nD) : (V m c main_v14 : S1x128.Idx → EReal)
    = v2d (m ((c : Thread nD τ).loc main_arg6)) (m ((c : Thread nD τ).loc main_arg7)) := by
  show StableHlo.after hostOps0 (fun b => m (c, b)) (Proc.devRef .tc main_v14) = _
  after_results
  rfl

end Entry

/-! ## The row array at an index -/

theorem v2d_apply (x6 : S128x128.Idx → EReal) (x7 : S128.Idx → EReal) (h : Fin 128) :
    v2d x6 x7 (ix2 0 h) = Spec.row x6 x7 h := by
  unfold v2d
  rw [shapeCast_apply _ shapeCasts_S128_S1x128 (ix2 0 h) (ix1 h)
    (by rw [Shape.rowMajor_val_one, Shape.rowMajor_val_two]; show h.val = 0 * 128 + h.val; omega)]
  rw [addf_apply]
  unfold Host.reduceAdd
  rw [Ideal.hostReduceAdd_def, Ideal.hostReduceAdd_single reducesTo_S128x128_S128_d1 (by decide) x6 _ (ix1 h)]
  unfold Spec.row
  rw [constant_apply, Ideal.ofBits_zero_f32, zero_add]
  congr 1
  refine Finset.sum_congr rfl fun k _ => congrArg x6 ?_
  funext a
  apply Fin.ext
  match a with
  | ⟨0, _⟩ => rfl
  | ⟨1, _⟩ => rfl

/-! ## The counters at an index -/

theorem cat_left (x1 x3 : S524288.Idx → BitVec 32) (n : Fin 1048576) (f : Fin 524288) (h : n.val = f.val) :
    catIdx x1 x3 (ix1 n) = x3 (ix1 f) := by
  unfold catIdx
  exact concatenate_pair_apply_left (0 : Fin S1048576.rank) x3 x1 concatenates_S524288_S524288_S1048576_d0 (ix1 n) rfl (ix1 f)
    (fun b => match b with | ⟨0, _⟩ => h.symm)

theorem cat_right (x1 x3 : S524288.Idx → BitVec 32) (n : Fin 1048576) (f : Fin 524288) (h : n.val = 524288 + f.val) :
    catIdx x1 x3 (ix1 n) = x1 (ix1 f) := by
  unfold catIdx
  refine concatenate_pair_apply_right (0 : Fin S1048576.rank) x3 x1 concatenates_S524288_S524288_S1048576_d0 (ix1 n) rfl rfl (ix1 f)
    (fun b hb => absurd (Fin.ext (show b.val = 0 by have h1 : b.val < 1 := b.isLt; omega)) hb) ?_
  show f.val + 524288 = n.val
  omega

theorem normIdx_apply (x1 x3 : S524288.Idx → BitVec 32) (n : Fin 1048576) :
    normIdx x1 x3 (ix2 n 0) = Spec.norm (catIdx x1 x3 (ix1 n)) := by
  unfold normIdx
  rw [broadcastInDim_apply _ bcast_S1048576_S1048576x1_0 _ (ix2 n 0) (ix1 n)
    (fun a => match a with
      | ⟨0, _⟩ => by show n.val = if (1048576 : Nat) = 1 then 0 else n.val; rw [if_neg (by decide)])]
  rfl

/-- The concatenated index set counted through its one coordinate. -/
theorem card_idx (x1 x3 : S524288.Idx → BitVec 32) (s : Fin 65536) :
    (Finset.univ.filter fun j : S1048576.Idx => (Spec.norm (catIdx x1 x3 j)).toInt = (s.val : ℤ)).card
    = (Finset.univ.filter fun f : Fin 1048576 => (Spec.norm (catIdx x1 x3 (ix1 f))).toInt = (s.val : ℤ)).card :=
  Spec.card_idx1 1048576 (fun j => (Spec.norm (catIdx x1 x3 j)).toInt = (s.val : ℤ))

/-- The 1048576 positions are the 524288 tail positions followed by the 524288 head positions. -/
theorem card_halves (x1 x3 : S524288.Idx → BitVec 32) (s : Fin 65536) :
    (Finset.univ.filter fun f : Fin 1048576 => (Spec.norm (catIdx x1 x3 (ix1 f))).toInt = (s.val : ℤ)).card
    = (Finset.univ.filter fun f : Fin 524288 => (Spec.norm (catIdx x1 x3 (ix1 (⟨f.val, by omega⟩ : Fin 1048576)))).toInt = (s.val : ℤ)).card
      + (Finset.univ.filter fun f : Fin 524288 => (Spec.norm (catIdx x1 x3 (ix1 (⟨524288 + f.val, by omega⟩ : Fin 1048576)))).toInt = (s.val : ℤ)).card :=
  Spec.card_filter_split (a := 524288) (b := 524288) (N := 1048576) (by norm_num)
      (fun f : Fin 1048576 => (Spec.norm (catIdx x1 x3 (ix1 f))).toInt = (s.val : ℤ))

/-- An update lands on slot `s` iff its normalised index, read signed, is `s`. -/
theorem landing_iff (x1 x3 : S524288.Idx → BitVec 32) (s : Fin 65536) (j : S1048576.Idx) :
    ScatterDims.resultIdx? dK j (normIdx x1 x3) = some (ix1 s) ↔ (Spec.norm (catIdx x1 x3 j)).toInt = (s.val : ℤ) := by
  obtain ⟨n, rfl⟩ : ∃ n : Fin 1048576, j = ix1 n := ⟨j 0, eq_ix1 j⟩
  rw [resultIdx_iff]
  show (normIdx x1 x3 (ix2 n 0)).toInt = (s.val : ℤ) ↔ _
  rw [normIdx_apply]

/-- How many of the concatenated indices land on slot `s`: its tail degree plus its head degree. -/
theorem card_landing (x1 x3 : S524288.Idx → BitVec 32) (s : Fin 65536) :
    (Finset.univ.filter fun j : S1048576.Idx => ScatterDims.resultIdx? dK j (normIdx x1 x3) = some (ix1 s)).card
      = Spec.deg x3 s + Spec.deg x1 s := by
  have h1 : (Finset.univ.filter fun j : S1048576.Idx => ScatterDims.resultIdx? dK j (normIdx x1 x3) = some (ix1 s))
      = Finset.univ.filter fun j : S1048576.Idx => (Spec.norm (catIdx x1 x3 j)).toInt = (s.val : ℤ) :=
    Finset.filter_congr fun j _ => landing_iff x1 x3 s j
  refine (congrArg Finset.card h1).trans ((card_idx x1 x3 s).trans ((card_halves x1 x3 s).trans ?_))
  have hl : ∀ f : Fin 524288, catIdx x1 x3 (ix1 (⟨f.val, by omega⟩ : Fin 1048576)) = x3 (ix1 f) :=
    fun f => cat_left x1 x3 _ f rfl
  have hr : ∀ f : Fin 524288, catIdx x1 x3 (ix1 (⟨524288 + f.val, by omega⟩ : Fin 1048576)) = x1 (ix1 f) :=
    fun f => cat_right x1 x3 _ f rfl
  simp only [hl, hr]
  rfl

theorem countsI_apply (x1 x3 : S524288.Idx → BitVec 32) (s : Fin 65536) :
    countsI x1 x3 (ix1 s) = BitVec.ofNat 32 (Spec.deg x3 s + Spec.deg x1 s) := by
  unfold countsI Host.scatter
  refine (Counting.foldl_count
    (fun n : Fin S1048576.numel => ScatterDims.resultIdx? dK (S1048576.rowMajor.symm n) (normIdx x1 x3)) _ ?_ ?_ _ _ _).trans ?_
  · intro r n i₀ h
    have h' : ScatterDims.resultIdx? dK (S1048576.rowMajor.symm n) (normIdx x1 x3) = some i₀ := h
    funext i'
    simp only [h']
    by_cases hc : i' = i₀
    · rw [if_pos hc, if_pos hc]; rfl
    · rw [if_neg hc, if_neg hc]
  · intro r n h
    have h' : ScatterDims.resultIdx? dK (S1048576.rowMajor.symm n) (normIdx x1 x3) = none := h
    simp only [h']
  · rw [Counting.countP_finRange]
    have hb : (Finset.univ.filter fun n : Fin S1048576.numel =>
          ScatterDims.resultIdx? dK (S1048576.rowMajor.symm n) (normIdx x1 x3) = some (ix1 s)).card
        = (Finset.univ.filter fun j : S1048576.Idx => ScatterDims.resultIdx? dK j (normIdx x1 x3) = some (ix1 s)).card := by
      refine Finset.card_bij (fun n _ => S1048576.rowMajor.symm n) ?_ ?_ ?_
      · intro n hn
        exact Finset.mem_filter.mpr ⟨Finset.mem_univ _, (Finset.mem_filter.mp hn).2⟩
      · intro n _ n' _ e
        exact S1048576.rowMajor.symm.injective e
      · intro j hj
        refine ⟨S1048576.rowMajor j, Finset.mem_filter.mpr ⟨Finset.mem_univ _, ?_⟩, Equiv.symm_apply_apply _ _⟩
        rw [Equiv.symm_apply_apply]; exact (Finset.mem_filter.mp hj).2
    rw [hb, card_landing]
    exact BitVec.zero_add _

theorem counts2d_apply (x1 x3 : S524288.Idx → BitVec 32) (s : Fin 65536) :
    counts2d x1 x3 (ix2 s 0) = (((Spec.deg x3 s + Spec.deg x1 s : ℕ) : ℝ) : EReal) := by
  unfold counts2d
  rw [shapeCast_apply _ shapeCasts_S65536_S65536x1 (ix2 s 0) (ix1 s)
    (by rw [Shape.rowMajor_val_one, Shape.rowMajor_val_two]; show s.val = s.val * 1 + 0; omega)]
  rw [sitofp_apply, countsI_apply]
  have hlt : Spec.deg x3 s + Spec.deg x1 s < 2 ^ 31 := by
    have := Spec.deg_le x3 s; have := Spec.deg_le x1 s; omega
  show (((BitVec.ofNat 32 (Spec.deg x3 s + Spec.deg x1 s)).toInt : ℝ) : EReal) = _
  rw [Counting.toInt_ofNat_of_lt hlt, Int.cast_natCast]

end Cert.KernelIdeal.Host

end
-- ==== Proof.KerValue.lean ====
/-
  The kernel's result is `Spec.G` reshaped.

  The region runs on 16 grid points.  At point t the body multiplies a 4096 × 1 block of the counters array (rows
  4096·t … 4096·t + 4095) by the whole 1 × 128 row array, each broadcast to 4096 × 128, and stores the positive part into
  rows 4096·t … 4096·t + 4095 of the 65536 × 128 output.  So what point t writes back is block t of ONE array-wide
  function: at (s, h) the positive part of counter(s) · row(h), which is `Spec.G`.  Row s is covered by point s / 4096,
  so the output array ends at `Spec.G`, and the program's last operation reshapes it to 32 × 2048 × 128.
-/
import proofs.«159091_j9234179687652_2_alg».proof.Proof.Gen.KernelIdeal.Frame
import proofs.«159091_j9234179687652_2_alg».proof.Proof.KerHost
import proofs.«159091_j9234179687652_2_alg».proof.Proof.Spec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.KernelIdeal.Host

variable (m : (ℓ : Loc nD τ sig) → Buf (Elt Ideal) ℓ) (ρ : Dev nD → PrngReg)

/-- The output array's value: `Spec.G` of the head, tail, W and b arguments. -/
def Gm (c : Dev nD) : S65536x128.Idx → EReal :=
  Spec.G (m ((c : Thread nD τ).loc main_arg1)) (m ((c : Thread nD τ).loc main_arg3))
    (m ((c : Thread nD τ).loc main_arg6)) (m ((c : Thread nD τ).loc main_arg7))

theorem hz : (![0, 0] : Fin 2 → Nat) = fun _ => 0 := funext fun a => by fin_cases a <;> rfl

/-- The body's arithmetic at one element: the positive part of (column entry of its row) · (row entry of its column). -/
theorem pay_apply (x0 : Vec Ideal S4096x1 .f32) (x1 : Vec Ideal S1x128 .f32) (p : Fin 4096) (q : Fin 128) :
    k0_pay1 (F := Ideal) x0 x1 (ix2 p q) = max (x0 (ix2 p 0) * x1 (ix2 0 q)) 0 := by
  unfold k0_pay1
  simp only [shapeCast_self]
  rw [maximumf_apply, mulf_apply,
    broadcastTo_apply x0 broadcasts_S4096x1_S4096x128 (ix2 p q) (ix2 p 0) (fun a => match a with
      | ⟨0, _⟩ => by show p.val = if (4096 : Nat) = 1 then 0 else p.val; rw [if_neg (by decide)]
      | ⟨1, _⟩ => by show 0 = if (1 : Nat) = 1 then 0 else q.val; rw [if_pos rfl]),
    broadcastTo_apply x1 broadcasts_S1x128_S4096x128 (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)])]
  show max _ (Ideal.ofBits .f32 0x00000000#32) = _
  rw [Ideal.ofBits_zero_f32]

/-- The printed index maps over the 16 points: the counters' and the output's blocks move down with the point, the row
    array's block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `Gm`. -/
theorem flushed_eq (c : Dev nD) (t : Fin cfg0.N) :
    (dats m 0 c).flushed 2 t = ((cfg0.win 2).blk t).view.read (Elt Ideal) (Gm m c) := by
  have hN : cfg0.N = 16 := N_0
  have ht : t.val < 16 := hN ▸ t.isLt
  show (cfg0.win 2).cut (grid0.coords t) ((dats m 0 c).after 2 t) = _
  rw [after0_2]
  unfold out0_2
  rw [View.canon_unit_zero hz]
  simp only [View.ld_unit_zero (S := S4096x1) hz, View.ld_unit_zero (S := S1x128) hz]
  obtain ⟨e00, e01, e10, e11, e20, e21⟩ := idx_facts t
  funext j
  obtain ⟨p, q, rfl⟩ : ∃ (p : Fin 4096) (q : Fin 128), j = ix2 p q := ⟨j 0, j 1, eq_ix2 j⟩
  show k0_pay1 (iblk m c 0 t) (iblk m c 1 t) (ix2 p q) = Gm m c (((cfg0.win 2).blk t).view.emb (ix2 p q))
  refine (pay_apply (iblk m c 0 t) (iblk m c 1 t) p q).trans ?_
  have hp : p.val < 4096 := p.isLt
  have hr : t.val * 4096 + p.val < 65536 := by omega
  have hb0 : (iblk m c 0 t : Vec Ideal S4096x1 .f32) (ix2 p 0)
      = counts2d (m ((c : Thread nD τ).loc main_arg1)) (m ((c : Thread nD τ).loc main_arg3)) (ix2 ⟨t.val * 4096 + p.val, hr⟩ 0) := by
    unfold iblk
    rw [View.read_apply]
    show (V m c main_v13 : S65536x1.Idx → EReal) _ = _
    rw [V_counts]
    congr 1
    funext a
    apply Fin.ext
    match a with
    | ⟨0, _⟩ => show win0_0.index t (0 : Fin 2) * 4096 + 1 * p.val = t.val * 4096 + p.val; rw [e00]; omega
    | ⟨1, _⟩ => show win0_0.index t (1 : Fin 2) * 1 + 1 * 0 = 0; rw [e01]
  have hb1 : (iblk m c 1 t : Vec Ideal S1x128 .f32) (ix2 0 q)
      = v2d (m ((c : Thread nD τ).loc main_arg6)) (m ((c : Thread nD τ).loc main_arg7)) (ix2 0 q) := by
    unfold iblk
    rw [View.read_apply]
    show (V m c main_v14 : S1x128.Idx → EReal) _ = _
    rw [V_row]
    congr 1
    funext a
    apply Fin.ext
    match a with
    | ⟨0, _⟩ => show win0_1.index t (0 : Fin 2) * 1 + 1 * 0 = 0; rw [e10]
    | ⟨1, _⟩ => show win0_1.index t (1 : Fin 2) * 128 + 1 * q.val = q.val; rw [e11]; omega
  have hemb : ((cfg0.win 2).blk t).view.emb (ix2 p q) = (ix2 ⟨t.val * 4096 + p.val, hr⟩ q : S65536x128.Idx) := by
    funext a
    apply Fin.ext
    match a with
    | ⟨0, _⟩ => show win0_2.index t (0 : Fin 2) * 4096 + 1 * p.val = t.val * 4096 + p.val; rw [e20]; omega
    | ⟨1, _⟩ => show win0_2.index t (1 : Fin 2) * 128 + 1 * q.val = q.val; rw [e21]; omega
  rw [hb0, hb1, hemb, counts2d_apply, v2d_apply]
  rfl

/-- An index of the output array is in point `t`'s block iff each coordinate is in the block's range on its axis. -/
theorem mem_blk (t : Fin cfg0.N) (i : S65536x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v15).slice (win0_2.rect t)).set ↔ _
  rw [View.set_slice_whole, Rect.mem_set_unit]
  exact Iff.rfl

/-- THE OUTPUT ARRAY after the region: row s lies in the block of point s / 4096, so the array is `Gm` everywhere. -/
theorem final (c : Dev nD) : (dats m 0 c).arrAt 2 cfg0.N = Gm m c :=
  (dats m 0 c).arrAt_eq_of_cover 2 (Gm m c) (fun t _ => flushed_eq m c t) (fun i => by
    have hi0 : (i 0).val < 65536 := (i 0).isLt
    have hi1 : (i 1).val < 128 := (i 1).isLt
    have hN : cfg0.N = 16 := N_0
    have htl : (i 0).val / 4096 < cfg0.N := by rw [hN]; omega
    refine ⟨⟨(i 0).val / 4096, htl⟩, flush0_2 _, ?_⟩
    rw [mem_blk]
    obtain ⟨-, -, -, -, e20, e21⟩ := idx_facts ⟨(i 0).val / 4096, htl⟩
    intro a
    match a with
    | ⟨0, _⟩ =>
      show win0_2.index ⟨(i 0).val / 4096, htl⟩ (0 : Fin 2) * 4096 ≤ (i 0).val ∧ (i 0).val < win0_2.index ⟨(i 0).val / 4096, htl⟩ (0 : Fin 2) * 4096 + 4096
      rw [e20]; show (i 0).val / 4096 * 4096 ≤ (i 0).val ∧ (i 0).val < (i 0).val / 4096 * 4096 + 4096; omega
    | ⟨1, _⟩ =>
      show win0_2.index ⟨(i 0).val / 4096, htl⟩ (1 : Fin 2) * 128 ≤ (i 1).val ∧ (i 1).val < win0_2.index ⟨(i 0).val / 4096, htl⟩ (1 : Fin 2) * 128 + 128
      rw [e21]; omega)

/-- The program's result: the reshape after the region applied to the region's output array. -/
theorem tail_eq (c : Dev nD) :
    Pipeline.afterTail₀ cfgs (dats m) 0 (V0 m) [hostOps1] c main_v16
      = shapeCast S32x2048x128 (Gm m c) shapeCasts_S65536x128_S32x2048x128 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15) = Gm m c :=
    (Pipeline.withArrays_arr spec0 launch0.win.arr_inj c _ _ 2).trans (final m c)
  rw [e]
  rfl

/-- The run, read: the result at `Gm` reshaped, the eight arguments unchanged. -/
theorem run : θ_run defs (onTc (τ := τ) (main (F := Ideal))) ⟨m, fun _ => 0, ρ⟩ fun r => ∀ c : Dev nD,
      r.2.mem ((c.tc : Thread nD τ).loc main_v16) = shapeCast S32x2048x128 (Gm m c) shapeCasts_S65536x128_S32x2048x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v16 (Pipeline.mem_restRefs_of main_v16 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Hand

end
-- ==== Proof.ScatterRef.lean ====
/-
  Where an update of the reference's two row scatters lands.  The updates form a 524288 × 128 array, the operand a
  65536 × 128 array, and the scatter indices a 524288 × 1 array whose one column names the operand ROW: update
  element (f, h) starts at row `idx (f, 0)` (read signed, not clamped) and keeps its column h.  So it lands on
  operand element (s, h') exactly when the signed index of fact f is s and h = h'; when the index is outside
  [0, 65536) it lands nowhere.
-/
import proofs.«159091_j9234179687652_2_alg».proof.Proof.Gen.ReferenceIdeal
import Idealize.ShloMosaic.Lib.ValueIdx

noncomputable section
open Idealize.ShloMosaic Idealize.ShloMosaic.ValueIdx
namespace Cert.ReferenceIdeal.ScatterIdx
open Cert.ReferenceIdeal Cert.ReferenceIdeal.Gen

local notation "dR" => scatter_S65536x128_S524288x1_S524288x128_1_0_0_1

/-- The row at which update `j` starts: the signed scatter index of its fact. -/
theorem start0 (j : S524288x128.Idx) (idx : IVec S524288x1 32) :
    ScatterDims.start dR j idx 0 = (idx (ix2 (j 0) 0)).toInt := by
  unfold ScatterDims.start
  rw [dif_pos (show (0 : Fin S65536x128.rank) ∈ ScatterDims.scatterDimsToOperandDims dR by decide)]
  congr 2
  funext b
  match b with
  | ⟨0, _⟩ => apply Fin.ext; rfl
  | ⟨1, _⟩ => apply Fin.ext; rfl

/-- No start offset on the column axis. -/
theorem start1 (j : S524288x128.Idx) (idx : IVec S524288x1 32) :
    ScatterDims.start dR j idx 1 = 0 := by
  unfold ScatterDims.start
  rw [dif_neg (show ¬ (1 : Fin S65536x128.rank) ∈ ScatterDims.scatterDimsToOperandDims dR by decide)]

/-- The row axis is inserted: no window coordinate there. -/
theorem window0 (j : S524288x128.Idx) : ScatterDims.window dR j 0 = 0 := by
  unfold ScatterDims.window
  rw [dif_neg (show ¬ (0 : Fin S65536x128.rank) ∈ ScatterDims.sKept dR by decide)]

/-- The window coordinate on the column axis is the update's column. -/
theorem window1 (j : S524288x128.Idx) : ScatterDims.window dR j 1 = (j 1).val := by
  unfold ScatterDims.window
  rw [dif_pos (show (1 : Fin S65536x128.rank) ∈ ScatterDims.sKept dR by decide)]
  rfl

/-- Update `j` lands on operand element `i` iff its fact's signed index is `i`'s row and the columns agree. -/
theorem resultIdx_iff (j : S524288x128.Idx) (idx : IVec S524288x1 32) (i : S65536x128.Idx) :
    ScatterDims.resultIdx? dR j idx = some i ↔
      (idx (ix2 (j 0) 0)).toInt = ((i 0).val : ℤ) ∧ (j 1).val = (i 1).val := by
  have hi0 : (i 0).val < 65536 := (i 0).isLt
  have hi1 : (i 1).val < 128 := (i 1).isLt
  have hj1 : (j 1).val < 128 := (j 1).isLt
  have sz0 : S65536x128.size 0 = 65536 := rfl
  have sz1 : S65536x128.size 1 = 128 := rfl
  unfold ScatterDims.resultIdx?
  by_cases h : ∀ a, 0 ≤ ScatterDims.start dR j idx a + ScatterDims.window dR j a ∧
      ScatterDims.start dR j idx a + ScatterDims.window dR j a < S65536x128.size a
  · rw [dif_pos h]
    have h0 := h 0
    rw [start0, window0, sz0] at h0
    constructor
    · intro e
      have e' := Option.some.inj e
      have e0 : (ScatterDims.start dR j idx 0 + ScatterDims.window dR j 0).toNat = (i 0).val :=
        congrArg (fun f : S65536x128.Idx => (f 0).val) e'
      have e1 : (ScatterDims.start dR j idx 1 + ScatterDims.window dR j 1).toNat = (i 1).val :=
        congrArg (fun f : S65536x128.Idx => (f 1).val) e'
      rw [start0, window0] at e0
      rw [start1, window1] at e1
      omega
    · rintro ⟨e0, e1⟩
      congr 1
      funext a
      apply Fin.ext
      match a with
      | ⟨0, _⟩ =>
        show (ScatterDims.start dR j idx 0 + ScatterDims.window dR j 0).toNat = (i 0).val
        rw [start0, window0]; omega
      | ⟨1, _⟩ =>
        show (ScatterDims.start dR j idx 1 + ScatterDims.window dR j 1).toNat = (i 1).val
        rw [start1, window1]; omega
  · rw [dif_neg h]
    constructor
    · intro e; cases e
    · rintro ⟨e0, e1⟩
      exfalso; apply h
      intro a
      match a with
      | ⟨0, _⟩ =>
        show 0 ≤ ScatterDims.start dR j idx 0 + ScatterDims.window dR j 0 ∧ ScatterDims.start dR j idx 0 + ScatterDims.window dR j 0 < S65536x128.size 0
        rw [start0, window0, sz0]; omega
      | ⟨1, _⟩ =>
        show 0 ≤ ScatterDims.start dR j idx 1 + ScatterDims.window dR j 1 ∧ ScatterDims.start dR j idx 1 + ScatterDims.window dR j 1 < S65536x128.size 1
        rw [start1, window1, sz1]; omega

end Cert.ReferenceIdeal.ScatterIdx
end
-- ==== Proof.RefValue.lean ====
/-
  The reference computes `Spec.G`.

  Its update array holds, at (fact f, feature h), the dot product of a row of ones with column h of Wᵀ plus b[h]:
  `row h`, whatever f.  Each of its two accumulating scatters adds to slot (s, h) the updates (f, h) of the facts whose
  normalised index is s — `deg · row h` — the first from zero with the tail indices, the second on top of it with the
  head indices; the result is the maximum of that sum with zero.
-/
import proofs.«159091_j9234179687652_2_alg».proof.Proof.Gen.ReferenceIdeal.Read
import proofs.«159091_j9234179687652_2_alg».proof.Proof.ScatterRef
import proofs.«159091_j9234179687652_2_alg».proof.Proof.Spec

noncomputable section

open scoped BigOperators

namespace Cert.ReferenceIdeal.RefValue

open Cert.ReferenceIdeal Cert.ReferenceIdeal.Gen Cert.ReferenceIdeal.Read Cert.ReferenceIdeal.ScatterIdx
open Idealize.ShloMosaic Idealize.ShloMosaic.ValueIdx

local notation "dR" => scatter_S65536x128_S524288x1_S524288x128_1_0_0_1

/-- The float word of 1.0 is the real number one. -/
theorem ofBits_one : Ideal.ofBits .f32 0x3F800000#32 = (1 : EReal) := by
  simp [Ideal.ofBits, Ideal.ieee, -EReal.coe_mul]
  norm_num

/-- Every update row is the shared row: ones · Wᵀ + b does not depend on the fact. -/
theorem upd_eq (x6 : S128x128.Idx → EReal) (x7 : S128.Idx → EReal) (j : S524288x128.Idx) :
    val_main_v5 (F := Ideal) x6 x7 j = Spec.row x6 x7 (j 1) := by
  rw [val_main_v5_apply, val_main_v2_apply, val_main_v4_apply, val_main_v3_apply]
  simp only [val_main_v0_apply, val_main_cst_apply, val_main_v1_apply, Ideal.ofBits_def, ofBits_one, one_mul,
    Ideal.addf_def]
  unfold Spec.row
  have e1 : ∀ k : Fin 128, idx_main_v1 (ridx_main_v2 j k) = ix2 (j 1) k := fun k =>
    funext fun a => Fin.ext (by match a with | ⟨0, _⟩ => rfl | ⟨1, _⟩ => rfl)
  have e2 : idx_main_v3 (idx_main_v4 j) = ix1 (j 1) :=
    funext fun a => Fin.ext (by match a with | ⟨0, _⟩ => rfl)
  simp only [e1, e2]
  rfl

/-- The head scatter's index column is the normalised head index. -/
theorem idx_heads (x1 : S524288.Idx → BitVec 32) (f : Fin 524288) :
    val_main_v19 (F := Ideal) x1 (ix2 f 0) = Spec.norm (x1 (ix1 f)) := by
  rw [val_main_v19_apply, val_main_v18_apply, val_main_v15_apply, val_main_v17_apply, val_main_v14_apply,
    val_main_v16_apply, val_main_c_2_apply, val_main_c_3_apply]
  have e : idx_main_v19 (ix2 f 0) = ix1 f := funext fun a => Fin.ext (by match a with | ⟨0, _⟩ => rfl)
  rw [e]
  rfl

/-- The tail scatter's index column is the normalised tail index. -/
theorem idx_tails (x3 : S524288.Idx → BitVec 32) (f : Fin 524288) :
    val_main_v12 (F := Ideal) x3 (ix2 f 0) = Spec.norm (x3 (ix1 f)) := by
  rw [val_main_v12_apply, val_main_v11_apply, val_main_v8_apply, val_main_v10_apply, val_main_v7_apply,
    val_main_v9_apply, val_main_c_apply, val_main_c_1_apply]
  have e : idx_main_v12 (ix2 f 0) = ix1 f := funext fun a => Fin.ext (by match a with | ⟨0, _⟩ => rfl)
  rw [e]
  rfl

/-- What one accumulating scatter adds to slot `i`: the shared row's entry once per fact whose normalised index is
    the slot's row, i.e. the degree times that entry. -/
theorem scatter_sum (x : S524288.Idx → BitVec 32) (idxv : IVec S524288x1 32)
    (hidx : ∀ f : Fin 524288, idxv (ix2 f 0) = Spec.norm (x (ix1 f)))
    (upd : S524288x128.Idx → EReal) (r : Fin 128 → EReal) (hupd : ∀ j, upd j = r (j 1)) (i : S65536x128.Idx) :
    ∑ j ∈ Finset.univ.filter (fun j => ScatterDims.resultIdx? dR j idxv = some i), upd j
      = ((Spec.deg x (i 0) : ℝ) : EReal) * r (i 1) := by
  have hconst : ∀ j ∈ Finset.univ.filter (fun j => ScatterDims.resultIdx? dR j idxv = some i), upd j = r (i 1) := by
    intro j hj
    have h := (resultIdx_iff j idxv i).mp (Finset.mem_filter.mp hj).2
    rw [hupd, show j 1 = i 1 from Fin.ext h.2]
  have hcard : (Finset.univ.filter (fun j => ScatterDims.resultIdx? dR j idxv = some i)).card = Spec.deg x (i 0) := by
    unfold Spec.deg
    refine Finset.card_bij (fun j _ => (j 0 : Fin 524288)) ?_ ?_ ?_
    · intro j hj
      have h := (resultIdx_iff j idxv i).mp (Finset.mem_filter.mp hj).2
      refine Finset.mem_filter.mpr ⟨Finset.mem_univ _, ?_⟩
      exact (congrArg BitVec.toInt (hidx (j 0))).symm.trans h.1
    · intro j hj j' hj' e
      have h1 := ((resultIdx_iff j idxv i).mp (Finset.mem_filter.mp hj).2).2
      have h2 := ((resultIdx_iff j' idxv i).mp (Finset.mem_filter.mp hj').2).2
      funext a
      match a with
      | ⟨0, _⟩ => exact e
      | ⟨1, _⟩ => exact Fin.ext (h1.trans h2.symm)
    · intro f hf
      have hf2 := (Finset.mem_filter.mp hf).2
      refine ⟨ix2 f (i 1), Finset.mem_filter.mpr ⟨Finset.mem_univ _, (resultIdx_iff _ idxv i).mpr ⟨?_, rfl⟩⟩, rfl⟩
      exact (congrArg BitVec.toInt (hidx f)).trans hf2
  rw [Finset.sum_congr rfl hconst, Counting.sum_const_mul, hcard]

/-- The reference's value before its final reshape is `Spec.G`. -/
theorem ref_eq (x1 x3 : S524288.Idx → BitVec 32) (x6 : S128x128.Idx → EReal) (x7 : S128.Idx → EReal) :
    val_main_v21 (F := Ideal) x1 x3 x6 x7 = Spec.G x1 x3 x6 x7 := by
  funext i
  rw [val_main_v21_apply, val_main_call0_v0_apply, val_main_call0_cst_apply]
  unfold val_main_v20 val_main_v13 Host.scatterAdd
  rw [Ideal.hostScatterAdd_def, Ideal.hostScatterAdd_def]
  unfold Ideal.hostScatterAdd
  dsimp only
  rw [scatter_sum x1 _ (idx_heads x1) _ (Spec.row x6 x7) (upd_eq x6 x7) i,
    scatter_sum x3 _ (idx_tails x3) _ (Spec.row x6 x7) (upd_eq x6 x7) i,
    val_main_v6_apply, val_main_cst_0_apply]
  simp only [Ideal.maximumf_def, Ideal.ofBits_def, Ideal.ofBits_zero_f32, zero_add]
  unfold Spec.G
  rw [Spec.split_mul]

end Cert.ReferenceIdeal.RefValue

end
-- ==== Proof.lean ====
/-
  Degree-weighted rows: a fact-to-entity aggregation with constant fact features.

  Both programs take head and tail slot indices of 524288 facts (into 32 · 2048 = 65536 slots), a 128 × 128 matrix W and
  a vector b, and return a 32 × 2048 × 128 array.

  The reference builds a 524288 × 128 array whose every row is ones · Wᵀ + b — the same row
  `row h = (∑ₖ W[h, k]) + b[h]` for every fact —, adds row f into slot tails[f] and into slot heads[f] of a zero
  65536 × 128 array, takes the positive part and reshapes.

  The kernel computes `row` once, counts in 32-bit integers how often each slot occurs among the tail and head indices
  together, and forms the positive part of count[s] · row[h] block by block (16 blocks of 4096 slots), then reshapes.

  Over the extended reals the two agree: a slot receives `row h` once per occurrence, and adding a value n times is
  multiplying it by n; the count is the tail degree plus the head degree and (a + b) · c = a · c + b · c holds for
  nonnegative integers a, b whatever c is, so no finiteness of W or b is needed.  The counts never exceed 1048576, so
  the integer counters do not wrap and convert to floats exactly.  Out-of-range indices are dropped by both programs
  and negative ones are wrapped once by both, by the same word arithmetic.

  The three frames are the generated ones (the reference's is its generated run with the result dropped); the kernel
  is its own idealization (no rewrite was applied), so `preserves` is trivial; `algebraic` joins the kernel's run
  (`KerValue`) and the reference's run through `RefValue.ref_eq`, both stated with the one function `Spec.G`.
-/
import proofs.«159091_j9234179687652_2_alg».proof.Defs
import proofs.«159091_j9234179687652_2_alg».proof.Proof.Gen.Kernel
import proofs.«159091_j9234179687652_2_alg».proof.Proof.Gen.Kernel.Skeleton
import proofs.«159091_j9234179687652_2_alg».proof.Proof.Gen.Kernel.Launch
import proofs.«159091_j9234179687652_2_alg».proof.Proof.Gen.Kernel.Points
import proofs.«159091_j9234179687652_2_alg».proof.Proof.Gen.Kernel.Frame
import proofs.«159091_j9234179687652_2_alg».proof.Proof.Gen.KernelIdeal
import proofs.«159091_j9234179687652_2_alg».proof.Proof.Gen.KernelIdeal.Skeleton
import proofs.«159091_j9234179687652_2_alg».proof.Proof.Gen.KernelIdeal.Launch
import proofs.«159091_j9234179687652_2_alg».proof.Proof.Gen.KernelIdeal.Points
import proofs.«159091_j9234179687652_2_alg».proof.Proof.Gen.KernelIdeal.Frame
import proofs.«159091_j9234179687652_2_alg».proof.Proof.Gen.ReferenceIdeal
import proofs.«159091_j9234179687652_2_alg».proof.Proof.Gen.Pre_finite_inputs
import proofs.«159091_j9234179687652_2_alg».proof.Proof.Gen.ReferenceIdeal.Run
import proofs.«159091_j9234179687652_2_alg».proof.Proof.Gen.ReferenceIdeal.Read
import proofs.«159091_j9234179687652_2_alg».proof.Proof.KerValue
import proofs.«159091_j9234179687652_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Spec.G` of the (agreeing) arguments, reshaped to 32 × 2048 × 128. -/
theorem algebraic : Cert.algebraic_KernelIdeal_ReferenceIdeal := by
  intro m ρ m' ρ' _ hagree
  refine ⟨fun c => shapeCast Cert.KernelIdeal.S32x2048x128 (Cert.KernelIdeal.Hand.Gm m c)
      Cert.KernelIdeal.Facts₀.shapeCasts_S65536x128_S32x2048x128, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨-, a1, -, a3, -, -, a6, a7⟩ := hagree c
  rw [Cert.ReferenceIdeal.Read.val_main_v22_eq]
  unfold Cert.ReferenceIdeal.Read.val_main_v22
  rw [Cert.ReferenceIdeal.RefValue.ref_eq, a1, a3, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
